-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "neg_inv_width" .f32 0xBC200000#32 ((-131072 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x512 : Shape := ⟨2, ![512, 512]⟩
abbrev S512 : Shape := ⟨1, ![512]⟩
abbrev S2 : Shape := ⟨1, ![2]⟩
abbrev S1024 : Shape := ⟨1, ![1024]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_arg8 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S2 .f32) (main_arg8 : FVec F S2 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S131072x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S2 .f32) (main_arg8 : FVec F S2 .f32) (main_arg9 : IVec S1024 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S131072x512 : Shape := ⟨2, ![131072, 512]⟩
abbrev S512x512 : Shape := ⟨2, ![512, 512]⟩
abbrev S512 : Shape := ⟨1, ![512]⟩
abbrev S2 : Shape := ⟨1, ![2]⟩
abbrev S1024 : Shape := ⟨1, ![1024]⟩
abbrev S_ : Shape := ⟨0, ![]⟩
abbrev S1024x1 : Shape := ⟨2, ![1024, 1]⟩
abbrev S1024x512 : Shape := ⟨2, ![1024, 512]⟩
abbrev S1x512 : Shape := ⟨2, ![1, 512]⟩
abbrev S512x1024 : Shape := ⟨2, ![512, 1024]⟩
abbrev S1024x1024 : Shape := ⟨2, ![1024, 1024]⟩
abbrev S128x1024x512 : Shape := ⟨3, ![128, 1024, 512]⟩
abbrev S1x1024x512 : Shape := ⟨3, ![1, 1024, 512]⟩
abbrev S1x1024 : Shape := ⟨2, ![1, 1024]⟩
abbrev S1 : Shape := ⟨1, ![1]⟩

abbrev nBuf : Space → Nat
  | .hbm => 98
  | .vmem => 4
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S2, .f32⟩
  | .hbm, ⟨8, _⟩ => ⟨S2, .f32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x512, .f32⟩
  | .hbm, ⟨19, _⟩ => ⟨S512x512, .f32⟩
  | .hbm, ⟨20, _⟩ => ⟨S1024x512, .f32⟩
  | .hbm, ⟨21, _⟩ => ⟨S1x512, .f32⟩
  | .hbm, ⟨22, _⟩ => ⟨S1024x512, .f32⟩
  | .hbm, ⟨23, _⟩ => ⟨S1024x512, .f32⟩
  | .hbm, ⟨24, _⟩ => ⟨S512x512, .f32⟩
  | .hbm, ⟨25, _⟩ => ⟨S1024x512, .f32⟩
  | .hbm, ⟨26, _⟩ => ⟨S1x512, .f32⟩
  | .hbm, ⟨27, _⟩ => ⟨S1024x512, .f32⟩
  | .hbm, ⟨28, _⟩ => ⟨S1024x512, .f32⟩
  | .hbm, ⟨29, _⟩ => ⟨S512x512, .f32⟩
  | .hbm, ⟨30, _⟩ => ⟨S1024x512, .f32⟩
  | .hbm, ⟨31, _⟩ => ⟨S1x512, .f32⟩
  | .hbm, ⟨32, _⟩ => ⟨S1024x512, .f32⟩
  | .hbm, ⟨33, _⟩ => ⟨S1024x512, .f32⟩
  | .hbm, ⟨34, _⟩ => ⟨S512x1024, .f32⟩
  | .hbm, ⟨35, _⟩ => ⟨S1024x1024, .f32⟩
  | .hbm, ⟨36, _⟩ => ⟨S_, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024x1, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S_, .f32⟩
  | .hbm, ⟨50, _⟩ => ⟨S1024, .f32⟩
  | .hbm, ⟨51, _⟩ => ⟨S1024x1, .f32⟩
  | .hbm, ⟨52, _⟩ => ⟨S1024x1024, .f32⟩
  | .hbm, ⟨53, _⟩ => ⟨S1024x1024, .f32⟩
  | .hbm, ⟨54, _⟩ => ⟨S1024x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S_, .f32⟩
  | .hbm, ⟨59, _⟩ => ⟨S1x512, .f32⟩
  | .hbm, ⟨60, _⟩ => ⟨S1x512, .f32⟩
  | .hbm, ⟨61, _⟩ => ⟨S131072x512, .f32⟩
  | .hbm, ⟨62, _⟩ => ⟨S128x1024x512, .f32⟩
  | .hbm, ⟨63, _⟩ => ⟨S128x1024x512, .f32⟩
  | .hbm, ⟨64, _⟩ => ⟨S131072x512, .f32⟩
  | .hbm, ⟨65, _⟩ => ⟨S_, .f32⟩
  | .hbm, ⟨66, _⟩ => ⟨S_, .f32⟩
  | .hbm, ⟨67, _⟩ => ⟨S2, .f32⟩
  | .hbm, ⟨68, _⟩ => ⟨S2, .f32⟩
  | .hbm, ⟨69, _⟩ => ⟨S_, .f32⟩
  | .hbm, ⟨70, _⟩ => ⟨S2, .f32⟩
  | .hbm, ⟨71, _⟩ => ⟨S2, .f32⟩
  | .hbm, ⟨72, _⟩ => ⟨S_, .f32⟩
  | .hbm, ⟨73, _⟩ => ⟨S2, .f32⟩
  | .hbm, ⟨74, _⟩ => ⟨S2, .f32⟩
  | .hbm, ⟨75, _⟩ => ⟨S2, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1, .f32⟩
  | .hbm, ⟨81, _⟩ => ⟨S2, .f32⟩
  | .hbm, ⟨82, _⟩ => ⟨S2, .f32⟩
  | .hbm, ⟨83, _⟩ => ⟨S2, .f32⟩
  | .hbm, ⟨84, _⟩ => ⟨S_, .f32⟩
  | .hbm, ⟨85, _⟩ => ⟨S_, .f32⟩
  | .hbm, ⟨86, _⟩ => ⟨S1, .f32⟩
  | .hbm, ⟨87, _⟩ => ⟨S2, .f32⟩
  | .hbm, ⟨88, _⟩ => ⟨S2, .f32⟩
  | .hbm, ⟨89, _⟩ => ⟨S1, .f32⟩
  | .hbm, ⟨90, _⟩ => ⟨S_, .f32⟩
  | .hbm, ⟨91, _⟩ => ⟨S131072x512, .f32⟩
  | .hbm, ⟨92, _⟩ => ⟨S131072x512, .f32⟩
  | .hbm, ⟨93, _⟩ => ⟨S1, .f32⟩
  | .hbm, ⟨94, _⟩ => ⟨S_, .f32⟩
  | .hbm, ⟨95, _⟩ => ⟨S131072x512, .f32⟩
  | .hbm, ⟨96, _⟩ => ⟨S131072x512, .f32⟩
  | .hbm, ⟨97, _⟩ => ⟨S131072x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S512x512_S512x512_1_0 : S512x512.Transposes [1, 0] S512x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  transposes_S1024x512_S512x1024_1_0 : S1024x512.Transposes [1, 0] S512x1024
  reducesTo_S1024x1024_S_d0_1 : S1024x1024.ReducesTo [0, 1] S_
  h_S_ : 0 < S_.numel
  bcast_S_S1024x1024 : S_.BroadcastsInDim S1024x1024 (![] : Fin 0 → Fin S1024x1024.rank)
  reducesTo_S1024x1024_S1024_d1 : S1024x1024.ReducesTo [1] S1024
  bcast_S1024x1_S1024x1024_0_1 : S1024x1.BroadcastsInDim S1024x1024 (![0, 1] : Fin 2 → Fin S1024x1024.rank)
  reducesTo_S1024x512_S512_d0 : S1024x512.ReducesTo [0] S512
  bcast_S_S1x512 : S_.BroadcastsInDim S1x512 (![] : Fin 0 → Fin S1x512.rank)
  bcast_S1x512_S131072x512_0_1 : S1x512.BroadcastsInDim S131072x512 (![0, 1] : Fin 2 → Fin S131072x512.rank)
  shapeCasts_S131072x512_S128x1024x512 : S131072x512.ShapeCasts S128x1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  reduces_S1024x512_S1024 : S1024x512.Reduces [1] S1024
  shapeCasts_S1024_S1024x1 : S1024.ShapeCasts S1024x1
  transposes_S1024x512_p1_0_S512x1024 : S1024x512.Transposes [1, 0] S512x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  shapeCasts_S1024x512_S1x1024x512 : S1024x512.ShapeCasts S1x1024x512
  shapeCasts_S128x1024x512_S131072x512 : S128x1024x512.ShapeCasts S131072x512
  reducesTo_S2_S_d0 : S2.ReducesTo [0] S_
  bcast_S_S2 : S_.BroadcastsInDim S2 (![] : Fin 0 → Fin S2.rank)
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  bcast_S_S131072x512 : S_.BroadcastsInDim S131072x512 (![] : Fin 0 → Fin S131072x512.rank)
  slices_S2_S1_1 : S2.Slices ![1] S1
  gather_S131072x512_S1024x1_S1024x512_1_0_n_n_0_1_1512_wf : GatherDims.WF S131072x512 S1024x1 S1024x512 [1] [0] [] [0] [] 1 ![1, 512]
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S128x1024x512.size a
  hwx0_0 : ∀ i : grid0.Coords, EltTy.bits .f32 = 32 ∨ (Rect.block (s := S128x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S128x1024x512.size a
  hwx0_1 : ∀ i : grid0.Coords, EltTy.bits .f32 = 32 ∨ (Rect.block (s := S128x1024x512) S1x1024x512.size (cc0_transform_1 i) (hinb0_1 i)).WholeWords (EltTy.packing .f32)

variable [Facts₀]

def gather_S131072x512_S1024x1_S1024x512_1_0_n_n_0_1_1512 : GatherDims S131072x512 S1024x1 S1024x512 where
  offsetDims := [1]
  collapsedSliceDims := [0]
  operandBatchingDims := []
  startIndicesBatchingDims := []
  startIndexMap := [0]
  indexVectorDim := 1
  sliceSizes := ![1, 512]
  wf := gather_S131072x512_S1024x1_S1024x512_1_0_n_n_0_1_1512_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v44) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1x1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x512 : Shape := ⟨2, ![512, 512]⟩
abbrev S512 : Shape := ⟨1, ![512]⟩
abbrev S2 : Shape := ⟨1, ![2]⟩
abbrev S1024 : Shape := ⟨1, ![1024]⟩
abbrev S_ : Shape := ⟨0, ![]⟩
abbrev S1024x1 : Shape := ⟨2, ![1024, 1]⟩
abbrev S1024x512 : Shape := ⟨2, ![1024, 512]⟩
abbrev S1x512 : Shape := ⟨2, ![1, 512]⟩
abbrev S512x1024 : Shape := ⟨2, ![512, 1024]⟩
abbrev S1024x1024 : Shape := ⟨2, ![1024, 1024]⟩
abbrev S128x1024x512 : Shape := ⟨3, ![128, 1024, 512]⟩
abbrev S128x1024 : Shape := ⟨2, ![128, 1024]⟩
abbrev S128x1024x1024 : Shape := ⟨3, ![128, 1024, 1024]⟩
abbrev S128x1024x1 : Shape := ⟨3, ![128, 1024, 1]⟩
abbrev S128x1x1024 : Shape := ⟨3, ![128, 1, 1024]⟩
abbrev S1 : Shape := ⟨1, ![1]⟩

abbrev nBuf : Space → Nat
  | .hbm => 122
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S2, .f32⟩
  | .hbm, ⟨8, _⟩ => ⟨S2, .f32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x512, .f32⟩
  | .hbm, ⟨19, _⟩ => ⟨S512x512, .f32⟩
  | .hbm, ⟨20, _⟩ => ⟨S1024x512, .f32⟩
  | .hbm, ⟨21, _⟩ => ⟨S1x512, .f32⟩
  | .hbm, ⟨22, _⟩ => ⟨S1024x512, .f32⟩
  | .hbm, ⟨23, _⟩ => ⟨S1024x512, .f32⟩
  | .hbm, ⟨24, _⟩ => ⟨S512x512, .f32⟩
  | .hbm, ⟨25, _⟩ => ⟨S1024x512, .f32⟩
  | .hbm, ⟨26, _⟩ => ⟨S1x512, .f32⟩
  | .hbm, ⟨27, _⟩ => ⟨S1024x512, .f32⟩
  | .hbm, ⟨28, _⟩ => ⟨S1024x512, .f32⟩
  | .hbm, ⟨29, _⟩ => ⟨S512x512, .f32⟩
  | .hbm, ⟨30, _⟩ => ⟨S1024x512, .f32⟩
  | .hbm, ⟨31, _⟩ => ⟨S1x512, .f32⟩
  | .hbm, ⟨32, _⟩ => ⟨S1024x512, .f32⟩
  | .hbm, ⟨33, _⟩ => ⟨S1024x512, .f32⟩
  | .hbm, ⟨34, _⟩ => ⟨S512x1024, .f32⟩
  | .hbm, ⟨35, _⟩ => ⟨S1024x1024, .f32⟩
  | .hbm, ⟨36, _⟩ => ⟨S_, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024x1, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S_, .f32⟩
  | .hbm, ⟨50, _⟩ => ⟨S1024, .f32⟩
  | .hbm, ⟨51, _⟩ => ⟨S1024x1, .f32⟩
  | .hbm, ⟨52, _⟩ => ⟨S1024x1024, .f32⟩
  | .hbm, ⟨53, _⟩ => ⟨S1024x1024, .f32⟩
  | .hbm, ⟨54, _⟩ => ⟨S1024x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S_, .f32⟩
  | .hbm, ⟨59, _⟩ => ⟨S1x512, .f32⟩
  | .hbm, ⟨60, _⟩ => ⟨S1x512, .f32⟩
  | .hbm, ⟨61, _⟩ => ⟨S131072x512, .f32⟩
  | .hbm, ⟨62, _⟩ => ⟨S128x1024x512, .f32⟩
  | .hbm, ⟨63, _⟩ => ⟨S128x1024x512, .f32⟩
  | .hbm, ⟨64, _⟩ => ⟨S_, .f32⟩
  | .hbm, ⟨65, _⟩ => ⟨S128x1024, .f32⟩
  | .hbm, ⟨66, _⟩ => ⟨S128x1024x1024, .f32⟩
  | .hbm, ⟨67, _⟩ => ⟨S128x1024x1, .f32⟩
  | .hbm, ⟨68, _⟩ => ⟨S128x1x1024, .f32⟩
  | .hbm, ⟨69, _⟩ => ⟨S128x1024x1024, .f32⟩
  | .hbm, ⟨70, _⟩ => ⟨S128x1024x1024, .f32⟩
  | .hbm, ⟨71, _⟩ => ⟨S128x1024x1024, .f32⟩
  | .hbm, ⟨72, _⟩ => ⟨S_, .f32⟩
  | .hbm, ⟨73, _⟩ => ⟨S128x1024x1024, .f32⟩
  | .hbm, ⟨74, _⟩ => ⟨S128x1024x1024, .f32⟩
  | .hbm, ⟨75, _⟩ => ⟨S128x1024x1024, .f32⟩
  | .hbm, ⟨76, _⟩ => ⟨S_, .f32⟩
  | .hbm, ⟨77, _⟩ => ⟨S128x1024x1024, .f32⟩
  | .hbm, ⟨78, _⟩ => ⟨S128x1024x1024, .f32⟩
  | .hbm, ⟨79, _⟩ => ⟨S128x1024x1024, .f32⟩
  | .hbm, ⟨80, _⟩ => ⟨S_, .f32⟩
  | .hbm, ⟨81, _⟩ => ⟨S128x1024x1024, .f32⟩
  | .hbm, ⟨82, _⟩ => ⟨S128x1024x1024, .f32⟩
  | .hbm, ⟨83, _⟩ => ⟨S128x1024x1024, .f32⟩
  | .hbm, ⟨84, _⟩ => ⟨S128x1024x512, .f32⟩
  | .hbm, ⟨85, _⟩ => ⟨S_, .f32⟩
  | .hbm, ⟨86, _⟩ => ⟨S128x1024x512, .f32⟩
  | .hbm, ⟨87, _⟩ => ⟨S128x1024x512, .f32⟩
  | .hbm, ⟨88, _⟩ => ⟨S131072x512, .f32⟩
  | .hbm, ⟨89, _⟩ => ⟨S_, .f32⟩
  | .hbm, ⟨90, _⟩ => ⟨S_, .f32⟩
  | .hbm, ⟨91, _⟩ => ⟨S2, .f32⟩
  | .hbm, ⟨92, _⟩ => ⟨S2, .f32⟩
  | .hbm, ⟨93, _⟩ => ⟨S_, .f32⟩
  | .hbm, ⟨94, _⟩ => ⟨S2, .f32⟩
  | .hbm, ⟨95, _⟩ => ⟨S2, .f32⟩
  | .hbm, ⟨96, _⟩ => ⟨S_, .f32⟩
  | .hbm, ⟨97, _⟩ => ⟨S2, .f32⟩
  | .hbm, ⟨98, _⟩ => ⟨S2, .f32⟩
  | .hbm, ⟨99, _⟩ => ⟨S2, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S1, .f32⟩
  | .hbm, ⟨105, _⟩ => ⟨S2, .f32⟩
  | .hbm, ⟨106, _⟩ => ⟨S2, .f32⟩
  | .hbm, ⟨107, _⟩ => ⟨S2, .f32⟩
  | .hbm, ⟨108, _⟩ => ⟨S_, .f32⟩
  | .hbm, ⟨109, _⟩ => ⟨S_, .f32⟩
  | .hbm, ⟨110, _⟩ => ⟨S1, .f32⟩
  | .hbm, ⟨111, _⟩ => ⟨S2, .f32⟩
  | .hbm, ⟨112, _⟩ => ⟨S2, .f32⟩
  | .hbm, ⟨113, _⟩ => ⟨S1, .f32⟩
  | .hbm, ⟨114, _⟩ => ⟨S_, .f32⟩
  | .hbm, ⟨115, _⟩ => ⟨S131072x512, .f32⟩
  | .hbm, ⟨116, _⟩ => ⟨S131072x512, .f32⟩
  | .hbm, ⟨117, _⟩ => ⟨S1, .f32⟩
  | .hbm, ⟨118, _⟩ => ⟨S_, .f32⟩
  | .hbm, ⟨119, _⟩ => ⟨S131072x512, .f32⟩
  | .hbm, ⟨120, _⟩ => ⟨S131072x512, .f32⟩
  | .hbm, ⟨121, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S512x512_S512x512_1_0 : S512x512.Transposes [1, 0] S512x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  transposes_S1024x512_S512x1024_1_0 : S1024x512.Transposes [1, 0] S512x1024
  reducesTo_S1024x1024_S_d0_1 : S1024x1024.ReducesTo [0, 1] S_
  h_S_ : 0 < S_.numel
  bcast_S_S1024x1024 : S_.BroadcastsInDim S1024x1024 (![] : Fin 0 → Fin S1024x1024.rank)
  reducesTo_S1024x1024_S1024_d1 : S1024x1024.ReducesTo [1] S1024
  bcast_S1024x1_S1024x1024_0_1 : S1024x1.BroadcastsInDim S1024x1024 (![0, 1] : Fin 2 → Fin S1024x1024.rank)
  reducesTo_S1024x512_S512_d0 : S1024x512.ReducesTo [0] S512
  bcast_S_S1x512 : S_.BroadcastsInDim S1x512 (![] : Fin 0 → Fin S1x512.rank)
  bcast_S1x512_S131072x512_0_1 : S1x512.BroadcastsInDim S131072x512 (![0, 1] : Fin 2 → Fin S131072x512.rank)
  shapeCasts_S131072x512_S128x1024x512 : S131072x512.ShapeCasts S128x1024x512
  reducesTo_S128x1024x512_S128x1024_d2 : S128x1024x512.ReducesTo [2] S128x1024
  bcast_S128x1024_S128x1024x1_0_1 : S128x1024.BroadcastsInDim S128x1024x1 (![0, 1] : Fin 2 → Fin S128x1024x1.rank)
  bcast_S128x1024_S128x1x1024_0_2 : S128x1024.BroadcastsInDim S128x1x1024 (![0, 2] : Fin 2 → Fin S128x1x1024.rank)
  bcast_S128x1024x1_S128x1024x1024_0_1_2 : S128x1024x1.BroadcastsInDim S128x1024x1024 (![0, 1, 2] : Fin 3 → Fin S128x1024x1024.rank)
  bcast_S128x1x1024_S128x1024x1024_0_1_2 : S128x1x1024.BroadcastsInDim S128x1024x1024 (![0, 1, 2] : Fin 3 → Fin S128x1024x1024.rank)
  bcast_S_S128x1024x1024 : S_.BroadcastsInDim S128x1024x1024 (![] : Fin 0 → Fin S128x1024x1024.rank)
  bcast_S_S128x1024x512 : S_.BroadcastsInDim S128x1024x512 (![] : Fin 0 → Fin S128x1024x512.rank)
  shapeCasts_S128x1024x512_S131072x512 : S128x1024x512.ShapeCasts S131072x512
  reducesTo_S2_S_d0 : S2.ReducesTo [0] S_
  bcast_S_S2 : S_.BroadcastsInDim S2 (![] : Fin 0 → Fin S2.rank)
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  bcast_S_S131072x512 : S_.BroadcastsInDim S131072x512 (![] : Fin 0 → Fin S131072x512.rank)
  slices_S2_S1_1 : S2.Slices ![1] S1
  gather_S131072x512_S1024x1_S1024x512_1_0_n_n_0_1_1512_wf : GatherDims.WF S131072x512 S1024x1 S1024x512 [1] [0] [] [0] [] 1 ![1, 512]
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  dot_S128x1024x512_S128x1024x512_S128x1024x1024_2_2_1_1_0_0_wf : DotDims.WF S128x1024x512 S128x1024x512 S128x1024x1024 [2] [2] [1] [1] [0] [0]
  dot_S128x1024x1024_S128x1024x512_S128x1024x512_2_1_1_2_0_0_wf : DotDims.WF S128x1024x1024 S128x1024x512 S128x1024x512 [2] [1] [1] [2] [0] [0]

variable [Facts₀]

def gather_S131072x512_S1024x1_S1024x512_1_0_n_n_0_1_1512 : GatherDims S131072x512 S1024x1 S1024x512 where
  offsetDims := [1]
  collapsedSliceDims := [0]
  operandBatchingDims := []
  startIndicesBatchingDims := []
  startIndexMap := [0]
  indexVectorDim := 1
  sliceSizes := ![1, 512]
  wf := gather_S131072x512_S1024x1_S1024x512_1_0_n_n_0_1_1512_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S128x1024x512_S128x1024x512_S128x1024x1024_2_2_1_1_0_0 : DotDims S128x1024x512 S128x1024x512 S128x1024x1024 where
  lhsContracting := [2]
  rhsContracting := [2]
  lhsNonContracting := [1]
  rhsNonContracting := [1]
  lhsBatch := [0]
  rhsBatch := [0]
  wf := dot_S128x1024x512_S128x1024x512_S128x1024x1024_2_2_1_1_0_0_wf
def dot_S128x1024x1024_S128x1024x512_S128x1024x512_2_1_1_2_0_0 : DotDims S128x1024x1024 S128x1024x512 S128x1024x512 where
  lhsContracting := [2]
  rhsContracting := [1]
  lhsNonContracting := [1]
  rhsNonContracting := [2]
  lhsBatch := [0]
  rhsBatch := [0]
  wf := dot_S128x1024x1024_S128x1024x512_S128x1024x512_2_1_1_2_0_0_wf

class Facts : Prop extends Facts₀ where

variable [Facts]
-- ==== Proof.GaussSpec.lean ====
/-
  Block-wise Gaussian attention as ONE function of rows arranged [n blocks, 1024 rows, 512 features].

  For block b and rows i, j of it:
    sqn b i      = Σ_k y(b,i,k)²                                the squared norm of row i
    inner b i j  = Σ_k y(b,i,k) · y(b,j,k)                      the inner product of rows i and j
    dist2 b i j  = max (sqn b i + sqn b j − 2 · inner b i j) 0    the clamped squared distance
    weight b i j = exp (−dist2 b i j / w)                       w the float nearest 102.4
    gauss (b,i,d) = (Σ_j weight b i j · y(b,j,d)) / 1024        row i's weighted mean of the block's rows
  Every operation is the exact one on the extended reals; the literals stay as their words (the same word on
  both sides is never evaluated). The number of blocks is a parameter: the whole array has 128, one grid
  point's block is the case n = 1, and a block's value depends on that block's rows only (`gauss_of_block`).
-/
import Idealize.ShloMosaic.PureOps.Ideal
import Idealize.ShloMosaic.Lib.ValueIdx

noncomputable section

namespace Cert.Gauss

open Idealize.ShloMosaic Idealize.ShloMosaic.ValueIdx

/-- Rows as `n` blocks: [n, 1024, 512]. -/
abbrev Blocks (n : ℕ) : Shape := ⟨3, ![n, 1024, 512]⟩

variable {n : ℕ} (y : (Blocks n).Idx → EReal)

/-- The squared norm of row `i` of block `b`. -/
def sqn (b : Fin n) (i : Fin 1024) : EReal := ∑ k : Fin 512, y (ix3 b i k) * y (ix3 b i k)

/-- The inner product of rows `i` and `j` of block `b`. -/
def inner (b : Fin n) (i j : Fin 1024) : EReal := ∑ k : Fin 512, y (ix3 b i k) * y (ix3 b j k)

/-- The squared distance of rows `i` and `j`, clamped at zero. -/
def dist2 (b : Fin n) (i j : Fin 1024) : EReal :=
  max (sqn y b i + sqn y b j - Ideal.ofBits .f32 0x40000000#32 * inner y b i j) (Ideal.ofBits .f32 0x00000000#32)

/-- The Gaussian weight of row `j` for row `i`. -/
def weight (b : Fin n) (i j : Fin 1024) : EReal :=
  Ideal.exp (Ideal.div (-(dist2 y b i j)) (Ideal.ofBits .f32 0x42CCCCCD#32))

/-- Row `i`'s weighted mean of its block's rows, feature by feature. -/
def gauss : (Blocks n).Idx → EReal := fun p =>
  Ideal.div (∑ j : Fin 1024, weight y (p 0) (p 1) j * y (ix3 (p 0) j (p 2))) (Ideal.ofBits .f32 0x44800000#32)

theorem gauss_apply (b : Fin n) (i : Fin 1024) (d : Fin 512) :
    gauss y (ix3 b i d)
      = Ideal.div (∑ j : Fin 1024, weight y b i j * y (ix3 b j d)) (Ideal.ofBits .f32 0x44800000#32) := rfl

/-- A block's value depends on that block's rows only: if the one block `z` holds block `t` of `y`, the
    function of `z` is block `t` of the function of `y`. -/
theorem gauss_of_block (z : (Blocks 1).Idx → EReal) (t : Fin n)
    (hz : ∀ (u : Fin 1) (j : Fin 1024) (k : Fin 512), z (ix3 u j k) = y (ix3 t j k))
    (u : Fin 1) (i : Fin 1024) (d : Fin 512) : gauss z (ix3 u i d) = gauss y (ix3 t i d) := by
  simp only [gauss_apply, weight, dist2, sqn, inner, hz]

end Cert.Gauss

end
-- ==== Proof.RefGauss.lean ====
/-
  The reference's Gaussian block is the specification, index by index.

  The reference reshapes the rows to [128, 1024, 512] and from there computes, stage by stage, the row norms
  (a sum over the feature axis from the initial value 0), the batched inner products (one contraction over the
  feature axis per block), the two norms broadcast along rows and along columns, the clamped squared distance,
  its negation over the width, the exponential, the batched product with the rows (a contraction over the
  block's row axis) and the quotient by 1024. Each stage read at an index is the corresponding quantity of the
  specification at the same block and rows; the only arithmetic used is 0 + s = s.
-/
import proofs.«120429_j64450279244499_1_alg».proof.Proof.Gen.ReferenceIdeal.Read
import proofs.«120429_j64450279244499_1_alg».proof.Proof.GaussSpec

noncomputable section

namespace Cert.ReferenceIdeal.RefGauss

open Cert.ReferenceIdeal Cert.ReferenceIdeal.Gen Cert.ReferenceIdeal.Read
open Idealize.ShloMosaic Idealize.ShloMosaic.ValueIdx Cert.Gauss

variable (x0 : (⟨S131072x512, .f32⟩ : BufTy).Contents (Elt Ideal))

/-- The rows as blocks, as the reference's reshape leaves them. -/
abbrev rows : (Blocks 128).Idx → EReal := val_main_v44 (F := Ideal) x0

/-- The reference's row norm (initial value 0 plus the sum over the features) is the squared norm. -/
theorem norm_eq (b : Fin 128) (i : Fin 1024) :
    val_main_v46 (F := Ideal) x0 (ix2 b i) = sqn (rows x0) b i := by
  rw [val_main_v46_apply, val_main_cst_6_apply]
  show Ideal.ofBits .f32 0x00000000#32 + _ = _
  rw [Ideal.ofBits_zero_f32, zero_add]
  refine Finset.sum_congr rfl fun k _ => ?_
  have e : idx_main_v46 (ix2 b i) k = ix3 b i k :=
    funext fun a => Fin.ext (by match a with | ⟨0, _⟩ => rfl | ⟨1, _⟩ => rfl | ⟨2, _⟩ => rfl)
  rw [val_main_v45_apply, e]
  rfl

/-- The reference's batched product of the rows with themselves is the inner product. -/
theorem inner_eq (b : Fin 128) (i j : Fin 1024) :
    val_main_v47 (F := Ideal) x0 (ix3 b i j) = inner (rows x0) b i j := by
  rw [val_main_v47_apply]
  refine Finset.sum_congr rfl fun k _ => ?_
  have el : lidx_main_v47 (ix3 b i j) k = ix3 b i k :=
    funext fun a => Fin.ext (by match a with | ⟨0, _⟩ => rfl | ⟨1, _⟩ => rfl | ⟨2, _⟩ => rfl)
  have er : ridx_main_v47 (ix3 b i j) k = ix3 b j k :=
    funext fun a => Fin.ext (by match a with | ⟨0, _⟩ => rfl | ⟨1, _⟩ => rfl | ⟨2, _⟩ => rfl)
  rw [el, er]

/-- The clamped squared distance: row i's norm broadcast along the columns plus row j's along the rows,
    less twice the inner product, clamped at zero. -/
theorem dist2_eq (b : Fin 128) (i j : Fin 1024) :
    val_main_v57 (F := Ideal) x0 (ix3 b i j) = dist2 (rows x0) b i j := by
  have e1 : idx_main_v48 (idx_main_v50 (ix3 b i j)) = ix2 b i :=
    funext fun a => Fin.ext (by match a with | ⟨0, _⟩ => rfl | ⟨1, _⟩ => rfl)
  have e2 : idx_main_v49 (idx_main_v51 (ix3 b i j)) = ix2 b j :=
    funext fun a => Fin.ext (by match a with | ⟨0, _⟩ => rfl | ⟨1, _⟩ => rfl)
  rw [val_main_v57_apply, val_main_v55_apply, val_main_v52_apply, val_main_v50_apply, val_main_v48_apply, e1,
    val_main_v51_apply, val_main_v49_apply, e2, val_main_v54_apply, val_main_v53_apply, val_main_cst_7_apply,
    val_main_v56_apply, val_main_cst_8_apply, norm_eq, norm_eq, inner_eq]
  rfl

/-- The Gaussian weight: the exponential of the negated squared distance over the width. -/
theorem weight_eq (b : Fin 128) (i j : Fin 1024) :
    val_main_v61 (F := Ideal) x0 (ix3 b i j) = weight (rows x0) b i j := by
  rw [val_main_v61_apply, val_main_v60_apply, val_main_v58_apply, val_main_v59_apply, val_main_cst_9_apply, dist2_eq]
  rfl

/-- The reference's Gaussian block is the specification of the reshaped rows. -/
theorem gauss_eq : val_main_v64 (F := Ideal) x0 = gauss (rows x0) := by
  funext p
  obtain ⟨b, i, d, rfl⟩ : ∃ (b : Fin 128) (i : Fin 1024) (d : Fin 512), p = ix3 b i d := ⟨p 0, p 1, p 2, eq_ix3 p⟩
  rw [gauss_apply, val_main_v64_apply, val_main_v63_apply, val_main_cst_10_apply, val_main_v62_apply]
  show Ideal.div _ _ = _
  refine congrArg (Ideal.div · _) (Finset.sum_congr rfl fun j _ => ?_)
  have el : lidx_main_v62 (ix3 b i d) j = ix3 b i j :=
    funext fun a => Fin.ext (by match a with | ⟨0, _⟩ => rfl | ⟨1, _⟩ => rfl | ⟨2, _⟩ => rfl)
  have er : ridx_main_v62 (ix3 b i d) j = ix3 b j d :=
    funext fun a => Fin.ext (by match a with | ⟨0, _⟩ => rfl | ⟨1, _⟩ => rfl | ⟨2, _⟩ => rfl)
  rw [el, er, weight_eq]

end Cert.ReferenceIdeal.RefGauss

end
-- ==== Proof.RefResult.lean ====
/-
  The reference's result as ONE function of the Gaussian block, everything else closed.

  The result is  p₀ · sampled + p₁ · reshape(block-wise Gaussian attention), where p₀, p₁ are the two softmax
  weights (functions of the two weight and noise arguments only) and `sampled` is the sampled-attention term
  (a function of the rows, the projections and the sampled indices). Neither is opened: they are carried as the
  reference's own stages, and the kernel's program computes them by the same operations.
-/
import proofs.«120429_j64450279244499_1_alg».proof.Proof.RefGauss

noncomputable section

namespace Cert.ReferenceIdeal.RefGauss

open Cert.ReferenceIdeal Cert.ReferenceIdeal.Gen Cert.ReferenceIdeal.Read
open Idealize.ShloMosaic Idealize.ShloMosaic.ValueIdx Cert.Gauss

variable (x0 : (⟨S131072x512, .f32⟩ : BufTy).Contents (Elt Ideal)) (x1 : (⟨S512x512, .f32⟩ : BufTy).Contents (Elt Ideal))
  (x2 : (⟨S512, .f32⟩ : BufTy).Contents (Elt Ideal)) (x3 : (⟨S512x512, .f32⟩ : BufTy).Contents (Elt Ideal))
  (x4 : (⟨S512, .f32⟩ : BufTy).Contents (Elt Ideal)) (x5 : (⟨S512x512, .f32⟩ : BufTy).Contents (Elt Ideal))
  (x6 : (⟨S512, .f32⟩ : BufTy).Contents (Elt Ideal)) (x7 x8 : (⟨S2, .f32⟩ : BufTy).Contents (Elt Ideal))
  (x9 : (⟨S1024, .i32⟩ : BufTy).Contents (Elt Ideal))

/-- The weighted sum of the sampled-attention term and a Gaussian block `g` laid back out as [131072, 512]. -/
def combine (g : (Blocks 128).Idx → EReal) : FVec Ideal S131072x512 .f32 :=
  addf (F := Ideal) (mulf (F := Ideal) (val_main_v86 (F := Ideal) x7 x8) (val_main_v43 (F := Ideal) x0 x1 x2 x3 x4 x5 x6 x9))
    (mulf (F := Ideal) (val_main_v90 (F := Ideal) x7 x8) (shapeCast S131072x512 (g : S128x1024x512.Idx → Ideal .f32) shapeCasts_S128x1024x512_S131072x512))

/-- The rows laid out as blocks. -/
def asBlocks : (Blocks 128).Idx → EReal := shapeCast S128x1024x512 (x0 : S131072x512.Idx → Ideal .f32) shapeCasts_S131072x512_S128x1024x512

/-- The reference's result is the combination at the specification of the rows laid out as blocks. -/
theorem result_eq :
    val_main_v92 (F := Ideal) x0 x1 x2 x3 x4 x5 x6 x7 x8 x9 = combine x0 x1 x2 x3 x4 x5 x6 x7 x8 x9 (gauss (asBlocks x0)) := by
  have h : gauss (asBlocks x0) = val_main_v64 (F := Ideal) x0 := (gauss_eq x0).symm
  rw [h]
  rfl

end Cert.ReferenceIdeal.RefGauss

end
-- ==== Proof.Consts.lean ====
/-
  The float literals of the Gaussian block as the extended reals their words denote, and the two scalar laws
  that join the kernel's products to the reference's quotients.

  The reference divides the negated squared distance by the word 0x42CCCCCD, which denotes 13421773/131072
  (the float nearest 102.4), and divides the weighted sum by 1024. The kernel multiplies the squared distance
  by a constant named -131072/13421773 = -1/(13421773/131072) and the weighted sum by 2^-10. On the extended
  reals a quotient by a nonzero real is the product with its reciprocal, at the infinities too, and a sign
  moves freely across a product; so the two spellings agree at every extended real.
-/
import Idealize.ShloMosaic.PureOps.Ideal

noncomputable section

namespace Cert.GaussConsts

open Idealize.ShloMosaic

/-- The reference's divisor under the exponential: the float nearest 102.4, exactly 13421773/131072. -/
theorem ofBits_width : Ideal.ofBits .f32 0x42CCCCCD#32 = ((13421773 / 131072 : ℝ) : EReal) := by
  simp [Ideal.ofBits, Ideal.ieee, -EReal.coe_mul]; norm_num

/-- The reference's block size as a divisor, 1024. -/
theorem ofBits_1024 : Ideal.ofBits .f32 0x44800000#32 = ((1024 : ℝ) : EReal) := by
  simp [Ideal.ofBits, Ideal.ieee, -EReal.coe_mul]; norm_num

/-- The kernel's reciprocal block size, 2^-10. -/
theorem ofBits_inv1024 : Ideal.ofBits .f32 0x3A800000#32 = ((1 / 1024 : ℝ) : EReal) := by
  simp [Ideal.ofBits, Ideal.ieee, -EReal.coe_mul]; norm_num

/-- The squared distance times -1/w is the negated squared distance over w, for w = 13421773/131072. -/
theorem scaled_eq_neg_div (d : EReal) :
    d * ((-131072 / 13421773 : ℝ) : EReal) = Ideal.div (-d) (Ideal.ofBits .f32 0x42CCCCCD#32) := by
  rw [ofBits_width, Ideal.div_coe (by norm_num), neg_mul, ← mul_neg, ← EReal.coe_neg]
  congr 2; norm_num

/-- A sum times 2^-10 is the sum over 1024. -/
theorem mul_inv1024_eq_div (s : EReal) :
    s * Ideal.ofBits .f32 0x3A800000#32 = Ideal.div s (Ideal.ofBits .f32 0x44800000#32) := by
  rw [ofBits_inv1024, ofBits_1024, Ideal.div_coe (by norm_num)]

end Cert.GaussConsts

end
-- ==== Proof.LibKeepdims.lean ====
/-
  A row sum kept as a column, read at an index.

  `jnp.sum(x, axis=-1, keepdims=True)` leaves an [a] vector cast to an [a, 1] column, and adding it to its own
  transpose broadcasts the column along the rows of an [a, b] matrix. Read at an index, the column at (i, u) is
  the vector at i, and the column broadcast along the rows at (p, c) is the column at (p, 0). (The companion
  forms — a row broadcast down the columns, the transpose of a matrix — are in the library's layout lemmas.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.BlockValue.lean ====
/-
  What one grid point computes: the kernel body's stored value, read at an index, is the specification on
  the one block it loaded.

  The body loads a [1, 1024, 512] block x, and stores (as a [1, 1024, 512] block again)
      ((exp (max (s·1ᵀ + 1·sᵀ − 2 · x·xᵀ) 0 · c)) · x) · 2^-10 ,
  where s is the column of row sums of x∘x, x·xᵀ and the last product are matrix products into a zero
  accumulator, and c is the constant named −1/w. Read at row i and feature d:
    the column of row sums broadcast along the rows is sqn i, its transpose broadcast down the columns sqn j;
    x·xᵀ at (i, j) is Σ_k x(i,k) · x(j,k) (the transposed operand read back), so the clamped difference is dist2 i j;
    dist2 · (−1/w) = (−dist2) / w, so the exponential is weight i j;
    the second product at (i, d) is Σ_j weight i j · x(j,d), and times 2^-10 is over 1024.
  The changes of float format on the way into the products are the identity on the extended reals.
-/
import proofs.«120429_j64450279244499_1_alg».proof.Proof.Gen.KernelIdeal.Skeleton
import proofs.«120429_j64450279244499_1_alg».proof.Proof.GaussSpec
import proofs.«120429_j64450279244499_1_alg».proof.Proof.Consts
import proofs.«120429_j64450279244499_1_alg».proof.Proof.LibKeepdims
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.BlockValue

open Cert.KernelIdeal Cert.KernelIdeal.Gen
open Idealize.ShloMosaic Idealize.ShloMosaic.ValueIdx Idealize.ShloMosaic.Keepdims Cert.Gauss Cert.GaussConsts

/-- The product of a block's rows with their transpose: contraction over the 512 features. -/
abbrev DG : DotDims S1024x512 S512x1024 S1024x1024 := dot_S1024x512_S512x1024_S1024x1024_1_0_0_1_n_n
/-- The product of the weights with the block's rows: contraction over the block's 1024 rows. -/
abbrev DW : DotDims S1024x1024 S1024x512 S1024x512 := dot_S1024x1024_S1024x512_S1024x512_1_0_0_1_n_n

/-! ## The two matrix products at an index -/

theorem dg_lhs_0 (i : S1024x1024.Idx) (q : DG.contr.Idx) : (DG.lhsIdx i q 0).val = (i 0).val := by
  unfold DotDims.lhsIdx
  rw [dif_neg (show ¬(0 : Fin S1024x512.rank) ∈ DG.lhsBatch by decide), dif_pos (show (0 : Fin S1024x512.rank) ∈ DG.lhsNonContracting by decide)]
  rfl
theorem dg_lhs_1 (i : S1024x1024.Idx) (q : DG.contr.Idx) : (DG.lhsIdx i q 1).val = (q ⟨0, by decide⟩).val :=
  DG.lhsIdx_val_of_single rfl i q
theorem dg_rhs_0 (i : S1024x1024.Idx) (q : DG.contr.Idx) : (DG.rhsIdx i q 0).val = (q ⟨0, by decide⟩).val :=
  DG.rhsIdx_val_of_single rfl i q
theorem dg_rhs_1 (i : S1024x1024.Idx) (q : DG.contr.Idx) : (DG.rhsIdx i q 1).val = (i 1).val := by
  unfold DotDims.rhsIdx
  rw [dif_neg (show ¬(1 : Fin S512x1024.rank) ∈ DG.rhsBatch by decide), dif_pos (show (1 : Fin S512x1024.rank) ∈ DG.rhsNonContracting by decide)]
  rfl

/-- A [1024, 512] × [512, 1024] product into the zero accumulator, at (i, j): the sum over the 512 of the products. -/
theorem rows_times_cols_apply (A : FVec Ideal S1024x512 .bf16) (B : FVec Ideal S512x1024 .bf16) (i j : Fin 1024) :
    matmul DG none A B (constant S1024x1024 .f32 0x00000000#32) (ix2 i j) = ∑ k : Fin 512, A (ix2 i k) * B (ix2 k j) := by
  refine (Ideal.matmul_constant_zero_apply DG none A B (ix2 i j)).trans ?_
  rw [← Equiv.sum_comp (contrEquiv1 DG 512 rfl rfl).symm]
  refine Finset.sum_congr rfl fun k _ => ?_
  have hk := contrEquiv1_symm_val DG 512 rfl rfl k
  have el : DG.lhsIdx (ix2 i j) ((contrEquiv1 DG 512 rfl rfl).symm k) = ix2 i k := funext fun a => Fin.ext (by
    match a with
    | ⟨0, _⟩ => exact dg_lhs_0 _ _
    | ⟨1, _⟩ => exact (dg_lhs_1 _ _).trans hk)
  have er : DG.rhsIdx (ix2 i j) ((contrEquiv1 DG 512 rfl rfl).symm k) = ix2 k j := funext fun a => Fin.ext (by
    match a with
    | ⟨0, _⟩ => exact (dg_rhs_0 _ _).trans hk
    | ⟨1, _⟩ => exact dg_rhs_1 _ _)
  rw [el, er]

theorem dw_lhs_0 (i : S1024x512.Idx) (q : DW.contr.Idx) : (DW.lhsIdx i q 0).val = (i 0).val := by
  unfold DotDims.lhsIdx
  rw [dif_neg (show ¬(0 : Fin S1024x1024.rank) ∈ DW.lhsBatch by decide), dif_pos (show (0 : Fin S1024x1024.rank) ∈ DW.lhsNonContracting by decide)]
  rfl
theorem dw_lhs_1 (i : S1024x512.Idx) (q : DW.contr.Idx) : (DW.lhsIdx i q 1).val = (q ⟨0, by decide⟩).val :=
  DW.lhsIdx_val_of_single rfl i q
theorem dw_rhs_0 (i : S1024x512.Idx) (q : DW.contr.Idx) : (DW.rhsIdx i q 0).val = (q ⟨0, by decide⟩).val :=
  DW.rhsIdx_val_of_single rfl i q
theorem dw_rhs_1 (i : S1024x512.Idx) (q : DW.contr.Idx) : (DW.rhsIdx i q 1).val = (i 1).val := by
  unfold DotDims.rhsIdx
  rw [dif_neg (show ¬(1 : Fin S1024x512.rank) ∈ DW.rhsBatch by decide), dif_pos (show (1 : Fin S1024x512.rank) ∈ DW.rhsNonContracting by decide)]
  rfl

/-- A [1024, 1024] × [1024, 512] product into the zero accumulator, at (i, d): the sum over the 1024 of the products. -/
theorem weights_times_rows_apply (W : FVec Ideal S1024x1024 .bf16) (X : FVec Ideal S1024x512 .bf16) (i : Fin 1024) (d : Fin 512) :
    matmul DW none W X (constant S1024x512 .f32 0x00000000#32) (ix2 i d) = ∑ j : Fin 1024, W (ix2 i j) * X (ix2 j d) := by
  refine (Ideal.matmul_constant_zero_apply DW none W X (ix2 i d)).trans ?_
  rw [← Equiv.sum_comp (contrEquiv1 DW 1024 rfl rfl).symm]
  refine Finset.sum_congr rfl fun k _ => ?_
  have hk := contrEquiv1_symm_val DW 1024 rfl rfl k
  have el : DW.lhsIdx (ix2 i d) ((contrEquiv1 DW 1024 rfl rfl).symm k) = ix2 i k := funext fun a => Fin.ext (by
    match a with
    | ⟨0, _⟩ => exact dw_lhs_0 _ _
    | ⟨1, _⟩ => exact (dw_lhs_1 _ _).trans hk)
  have er : DW.rhsIdx (ix2 i d) ((contrEquiv1 DW 1024 rfl rfl).symm k) = ix2 k d := funext fun a => Fin.ext (by
    match a with
    | ⟨0, _⟩ => exact (dw_rhs_0 _ _).trans hk
    | ⟨1, _⟩ => exact dw_rhs_1 _ _)
  rw [el, er]

/-! ## The row sums -/

/-- The sum of a [1024, 512] array over its second axis, at row i. -/
theorem row_sum_apply (x : FVec Ideal S1024x512 .f32) (h : S1024x512.Reduces [1] S1024) (hφ : FKind.Formats .f32)
    (hacc : (0x00000000#32 : BitVec 32) = FKind.add.neutral .f32 hφ) (i : Fin 1024) :
    multiReduction .add [1] S1024 x 0x00000000#32 h hφ hacc (ix1 i) = ∑ k : Fin 512, x (ix2 i k) := by
  refine (Ideal.multiReduction_add_single x 0x00000000#32 h hφ hacc (ix1 i)).trans ?_
  refine Finset.sum_congr rfl fun k _ => congrArg x (funext fun a => Fin.ext ?_)
  match a with
  | ⟨0, _⟩ => rfl
  | ⟨1, _⟩ => rfl

/-- The row sums of the squares of a loaded block (its leading unit axis dropped) are the squared norms. -/
theorem norms_apply (v0 : FVec Ideal S1x1024x512 .f32) (hc : S1x1024x512.ShapeCasts S1024x512)
    (h : S1024x512.Reduces [1] S1024) (hφ : FKind.Formats .f32)
    (hacc : (0x00000000#32 : BitVec 32) = FKind.add.neutral .f32 hφ) (i : Fin 1024) :
    multiReduction .add [1] S1024 (mulf (shapeCast S1024x512 v0 hc) (shapeCast S1024x512 v0 hc)) 0x00000000#32 h hφ hacc (ix1 i)
      = sqn (n := 1) v0 0 i := by
  refine (row_sum_apply _ h hφ hacc i).trans ?_
  refine Finset.sum_congr rfl fun k _ => ?_
  exact congrArg₂ (· * ·) (shapeCast_1ab_ab_apply v0 hc i k) (shapeCast_1ab_ab_apply v0 hc i k)

/-! ## The named constant -/

/-- The kernel's constant under the exponential denotes −1/w, w = 13421773/131072, by the certificate's table. -/
theorem neg_inv_width : Named.named (F := Ideal) κ "neg_inv_width" (φ := .f32) 0xBC200000#32 = ((-131072 / 13421773 : ℝ) : EReal) :=
  IdealRules.named_const.ideal_named_scalar _ _ _ _ rfl

/-! ## The stored value at an index -/

/-- The body's stored value, at row `i` and feature `d` of the block, is the specification on the loaded block. -/
theorem payload_apply (v0 : FVec Ideal S1x1024x512 .f32) (u : Fin 1) (i : Fin 1024) (d : Fin 512) :
    k0_pay1 (F := Ideal) v0 (ix3 u i d) = gauss (n := 1) v0 (ix3 u i d) := by
  obtain rfl : u = 0 := Subsingleton.elim _ _
  rw [gauss_apply]
  unfold k0_pay1
  dsimp only
  refine (shapeCast_ab_1ab_apply _ _ 0 i d).trans ?_
  refine (mul_inv1024_eq_div _).trans ?_
  refine congrArg (Ideal.div · _) ?_
  refine (weights_times_rows_apply _ _ i d).trans ?_
  refine Finset.sum_congr rfl fun j _ => ?_
  refine congrArg₂ (· * ·) ?_ (shapeCast_1ab_ab_apply v0 _ j d)
  unfold weight
  refine congrArg Ideal.exp ?_
  rw [← scaled_eq_neg_div]
  refine congrArg₂ (· * ·) ?_ neg_inv_width
  unfold dist2
  refine congrArg₂ max ?_ rfl
  refine congrArg₂ (· - ·) (congrArg₂ (· + ·) ?_ ?_) (congrArg₂ (· * ·) rfl ?_)
  · refine (broadcastTo_a1_ab_apply _ _ i j).trans ?_
    refine (shapeCast_a_a1_apply _ _ i 0).trans ?_
    exact norms_apply v0 _ _ _ _ i
  · refine (broadcastTo_1b_ab_apply _ _ i j).trans ?_
    refine (transpose_ix2_apply _ _ 0 j).trans ?_
    refine (shapeCast_a_a1_apply _ _ j 0).trans ?_
    exact norms_apply v0 _ _ _ _ j
  · refine (rows_times_cols_apply _ _ i j).trans ?_
    refine Finset.sum_congr rfl fun k _ => ?_
    refine congrArg₂ (· * ·) (shapeCast_1ab_ab_apply v0 _ i k) ?_
    refine (transpose_ix2_apply _ _ k j).trans ?_
    exact shapeCast_1ab_ab_apply v0 _ j k

end Cert.KernelIdeal.BlockValue

end
-- ==== Proof.GaussArray.lean ====
/-
  From blocks to the array: after the region, the kernel's output array is the specification of the rows the
  region found.

  The grid has 128 points; point t stages block t of the [128, 1024, 512] rows (all 1024 rows and 512
  features of it) and writes back block t of the output. What it writes back is the stored value of the body
  on the block it loaded, which is the specification on that one block, and a block's value depends on that
  block's rows only: so point t writes back block t of the specification of the whole array. Every index
  (b, i, d) of the output lies in the block of point b, so the 128 blocks cover the array and it ends as the
  specification everywhere.
-/
import proofs.«120429_j64450279244499_1_alg».proof.Proof.Gen.KernelIdeal.Frame
import proofs.«120429_j64450279244499_1_alg».proof.Proof.BlockValue
import Idealize.ShloMosaic.Lib.Pipeline.Value

set_option maxRecDepth 16384

noncomputable section

namespace Cert.KernelIdeal.GaussArray

open Cert.KernelIdeal Cert.KernelIdeal.Gen
open Idealize.ShloMosaic Idealize.ShloMosaic.TcCoe Idealize.SL.Sem
open Idealize.ShloMosaic.ValueIdx Cert.Gauss
open Idealize.ShloMosaic.Pipeline (Dat Cfg Window)

variable (m : (ℓ : Loc nD τ sig) → Buf (Elt Ideal) ℓ)

/-- The rows as blocks, as the region finds them. -/
abbrev rowsAt (c : Dev nD) : (Blocks 128).Idx → EReal := V (F := Ideal) m c main_v44

theorem hz : (![0, 0, 0] : Fin 3 → Nat) = fun _ => 0 := funext fun a => by fin_cases a <;> rfl

/-- The printed index maps over the grid: point t's input block and output block are both block t, whole on
    the row and feature axes. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- A grid point as a block number. -/
def blockOf (t : Fin cfg0.N) : Fin 128 := ⟨t.val, by have h := t.isLt; have hN : cfg0.N = 128 := N_0; omega⟩

/-- The block point t loads is block t of the rows. -/
theorem block_read (c : Dev nD) (t : Fin cfg0.N) (u : Fin 1) (j : Fin 1024) (k : Fin 512) :
    iblk m c 0 t (ix3 u j k) = rowsAt m c (ix3 (blockOf t) j k) := by
  show V m c main_v44 (((cfg0.win 0).blk t).view.emb (ix3 u j k)) = V m c main_v44 (ix3 (blockOf t) j k)
  obtain ⟨e0, e1, e2, -, -, -⟩ := idx_facts t
  refine congrArg (V m c main_v44) (funext fun a => Fin.ext ?_)
  have hu : u.val < 1 := u.isLt
  match a with
  | ⟨0, _⟩ => show win0_0.index t (0 : Fin 3) * 1 + 1 * u.val = t.val; omega
  | ⟨1, _⟩ => show win0_0.index t (1 : Fin 3) * 1024 + 1 * j.val = j.val; omega
  | ⟨2, _⟩ => show win0_0.index t (2 : Fin 3) * 512 + 1 * k.val = k.val; omega

/-- The stored value of the body on a block holding block `b` of the rows `X`, at a block index `y`, is the
    specification of `X` at the array index `p` with block `b` and `y`'s row and feature. -/
theorem point_value (X : (Blocks 128).Idx → EReal) (v0 : FVec Ideal S1x1024x512 .f32) (b : Fin 128)
    (hv : ∀ (u : Fin 1) (j : Fin 1024) (k : Fin 512), v0 (ix3 u j k) = X (ix3 b j k))
    (y : S1x1024x512.Idx) (p : S128x1024x512.Idx) (hp0 : (p 0).val = b.val) (hp1 : (p 1).val = (y 1).val)
    (hp2 : (p 2).val = (y 2).val) : k0_pay1 (F := Ideal) v0 y = gauss X p := by
  obtain ⟨u, i, d, rfl⟩ : ∃ (u : Fin 1) (i : Fin 1024) (d : Fin 512), y = ix3 u i d := ⟨y 0, y 1, y 2, eq_ix3 y⟩
  have hp : p = ix3 b i d := funext fun a => Fin.ext (by
    match a with
    | ⟨0, _⟩ => exact hp0
    | ⟨1, _⟩ => exact hp1
    | ⟨2, _⟩ => exact hp2)
  rw [hp, BlockValue.payload_apply]
  exact gauss_of_block X v0 b hv u i d

/-- WHAT POINT `t` WRITES BACK is block `t` of the specification of the rows as the region finds them. -/
theorem flushed_eq (c : Dev nD) (t : Fin cfg0.N) :
    (dats m 0 c).flushed 1 t = ((cfg0.win 1).blk t).view.read (Elt Ideal) (gauss (rowsAt m c)) := by
  show (cfg0.win 1).cut (grid0.coords t) ((dats m 0 c).after 1 t) = _
  rw [after0_1]
  unfold out0_1
  rw [View.canon_unit_zero hz]
  simp only [View.ld_unit_zero (S := S1x1024x512) hz]
  obtain ⟨-, -, -, e0, e1, e2⟩ := idx_facts t
  funext y
  show k0_pay1 (F := Ideal) (iblk m c 0 t) y = gauss (rowsAt m c) (((cfg0.win 1).blk t).view.emb y)
  have hy0 : (y 0).val < 1 := (y 0).isLt
  refine point_value (rowsAt m c) (iblk m c 0 t) (blockOf t) (block_read m c t) y _ ?_ ?_ ?_
  · show win0_1.index t (0 : Fin 3) * 1 + 1 * (y 0).val = t.val; omega
  · show win0_1.index t (1 : Fin 3) * 1024 + 1 * (y 1).val = (y 1).val; omega
  · show win0_1.index t (2 : Fin 3) * 512 + 1 * (y 2).val = (y 2).val; omega

/-- An index of the output array is in point `t`'s block iff each coordinate is in the block's range on its axis. -/
theorem mem_blk (t : Fin cfg0.N) (i : S128x1024x512.Idx) :
    i ∈ ((cfg0.win 1).blk t).view.set ↔ ∀ a : Fin 3, win0_1.index t a * S1x1024x512.size a ≤ (i a).val ∧ (i a).val < win0_1.index t a * S1x1024x512.size a + S1x1024x512.size a := by
  show i ∈ ((View.whole main_v45).slice (win0_1.rect t)).set ↔ _
  rw [View.set_slice_whole, Rect.mem_set_unit]
  exact Iff.rfl

/-- Every index of the output array is in the block of the point numbered by its block coordinate. -/
theorem cover (i : S128x1024x512.Idx) :
    ∃ t : Fin cfg0.N, (cfg0.win 1).flush t = true ∧ i ∈ ((cfg0.win 1).blk t).view.set := by
  have h0 : (i 0).val < 128 := (i 0).isLt
  have h1 : (i 1).val < 1024 := (i 1).isLt
  have h2 : (i 2).val < 512 := (i 2).isLt
  have hN : (i 0).val < cfg0.N := by have hN : cfg0.N = 128 := N_0; omega
  refine ⟨⟨(i 0).val, hN⟩, flush0_1 _, ?_⟩
  rw [mem_blk]
  obtain ⟨-, -, -, e0, e1, e2⟩ := idx_facts ⟨(i 0).val, hN⟩
  have e0 : win0_1.index ⟨(i 0).val, hN⟩ (0 : Fin 3) = (i 0).val := e0
  intro a
  match a with
  | ⟨0, _⟩ => show win0_1.index ⟨(i 0).val, hN⟩ (0 : Fin 3) * 1 ≤ (i 0).val ∧ (i 0).val < win0_1.index ⟨(i 0).val, hN⟩ (0 : Fin 3) * 1 + 1; omega
  | ⟨1, _⟩ => show win0_1.index ⟨(i 0).val, hN⟩ (1 : Fin 3) * 1024 ≤ (i 1).val ∧ (i 1).val < win0_1.index ⟨(i 0).val, hN⟩ (1 : Fin 3) * 1024 + 1024; omega
  | ⟨2, _⟩ => show win0_1.index ⟨(i 0).val, hN⟩ (2 : Fin 3) * 512 ≤ (i 2).val ∧ (i 2).val < win0_1.index ⟨(i 0).val, hN⟩ (2 : Fin 3) * 512 + 512; omega

/-- THE ARRAY after the run: the specification of the rows as the region finds them. -/
theorem final (c : Dev nD) : (dats m 0 c).arrAt 1 cfg0.N = gauss (rowsAt m c) :=
  (dats m 0 c).arrAt_eq_of_cover 1 (gauss (rowsAt m c)) (fun t _ => flushed_eq m c t) cover

end Cert.KernelIdeal.GaussArray

end
-- ==== Proof.KernelHost.lean ====
/-
  The kernel's program around its region: what the region finds, and what the lines after it make of its output.

  Before the region the program computes the sampled-attention term and reshapes the rows to [128, 1024, 512];
  the region reads the reshaped rows. After the region it reshapes the region's output back to [131072, 512],
  computes the two softmax weights, and adds the two weighted terms. The sampled-attention term and the weights
  are computed by the same operations as in the reference, so they are named by the reference's stages and never
  opened; the result is the reference's combination at whatever the region's output array holds.
-/
import proofs.«120429_j64450279244499_1_alg».proof.Proof.Gen.KernelIdeal.Frame
import proofs.«120429_j64450279244499_1_alg».proof.Proof.RefResult
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ)

/-- The reference's combination at the kernel program's arguments. -/
abbrev combineAt (c : Dev nD) (g : (Cert.Gauss.Blocks 128).Idx → EReal) : S131072x512.Idx → EReal :=
  Cert.ReferenceIdeal.RefGauss.combine (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) g

/-- The region finds the rows laid out as blocks. -/
theorem rows_entry (c : Dev nD) :
    (V (F := Ideal) m c main_v44 : S128x1024x512.Idx → EReal)
      = Cert.ReferenceIdeal.RefGauss.asBlocks (m ((c.tc : Thread nD τ).loc main_arg0)) := by
  show StableHlo.after hostOps0 (fun b => m (c, b)) (Proc.devRef .tc main_v44) = _
  after_results
  rfl

set_option maxHeartbeats 40000000 in
/-- The sampled-attention term the lines before the region compute is the reference's. -/
theorem sampled_entry (c : Dev nD) :
    (V0 (F := Ideal) m c (Proc.devRef .tc main_v43) : S131072x512.Idx → EReal)
      = Cert.ReferenceIdeal.Read.val_main_v43 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg9)) := by
  show StableHlo.after hostOps0 (fun b => m (c, b)) (Proc.devRef .tc main_v43) = _
  after_results_simp
  rfl

end Cert.KernelIdeal.HostSide

end
-- ==== Proof.KernelRun.lean ====
/-
  The kernel's program, run: its result is the reference's combination at the specification of the rows.

  The lines after the region read the region's output array (which ends as the specification of the rows the
  region found, and those are the argument rows laid out as blocks), the sampled-attention term computed before
  the region, and the two weight arguments; what they compute from these is the reference's combination. So every
  weakly fair execution ends with the result buffer at that combination and the arguments as launched.
-/
import proofs.«120429_j64450279244499_1_alg».proof.Proof.GaussArray
import proofs.«120429_j64450279244499_1_alg».proof.Proof.KernelHost

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

set_option maxHeartbeats 40000000 in
/-- The lines after the region make the reference's combination of the region's output array. -/
theorem tail_eq (c : Dev nD) :
    Pipeline.afterTail₀ cfgs (dats m) 0 (V0 m) [hostOps1] c main_v73 = combineAt m c ((dats m 0 c).arrAt 1 cfg0.N) := by
  unfold Pipeline.afterTail₀
  show StableHlo.after hostOps1 _ (Proc.devRef .tc main_v73) = _
  after_results_simp
  rw [Pipeline.withArrays_arr spec0 launch0.win.arr_inj c (V0 m c) _ 1,
    Pipeline.withArrays_of_ne _ c (V0 m c) _ main_v43 (by exact (by decide : ∀ w, Pipeline.arrRef spec0 w ≠ main_v43)),
    Pipeline.withArrays_of_ne _ c (V0 m c) _ main_arg7 (by exact (by decide : ∀ w, Pipeline.arrRef spec0 w ≠ main_arg7)),
    Pipeline.withArrays_of_ne _ c (V0 m c) _ main_arg8 (by exact (by decide : ∀ w, Pipeline.arrRef spec0 w ≠ main_arg8))]
  have h7 : V0 m c (Proc.devRef .tc main_arg7) = m ((c.tc : Thread nD τ).loc main_arg7) := V_main_arg7 m c
  have h8 : V0 m c (Proc.devRef .tc main_arg8) = m ((c.tc : Thread nD τ).loc main_arg8) := V_main_arg8 m c
  rw [h7, h8, sampled_entry m c]
  rfl

/-- The result buffer's value: the combination at the specification of the argument rows laid out as blocks. -/
theorem result_value (c : Dev nD) :
    Pipeline.afterTail₀ cfgs (dats m) 0 (V0 m) [hostOps1] c main_v73
      = combineAt m c (Cert.Gauss.gauss (Cert.ReferenceIdeal.RefGauss.asBlocks (m ((c.tc : Thread nD τ).loc main_arg0)))) := by
  rw [tail_eq, GaussArray.final]
  exact congrArg (fun X => combineAt m c (Cert.Gauss.gauss X)) (rows_entry m c)

/-- Every weakly fair execution of the kernel's program terminates with the result at that combination and the
    arguments unchanged. -/
theorem run : θ_run defs (onTc (τ := τ) (main (F := Ideal))) ⟨m, fun _ => 0, ρ⟩ (fun r => ∀ c : Dev nD,
      r.2.mem ((c.tc : Thread nD τ).loc main_v73)
        = combineAt m c (Cert.Gauss.gauss (Cert.ReferenceIdeal.RefGauss.asBlocks (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).2 main_v73 (Pipeline.mem_restRefs_of main_v73 (by decide) (by decide))).trans (result_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.HostSide

end
-- ==== Proof.lean ====
/-
  Block-wise Gaussian attention plus a sampled-attention term: the kernel's program and the jnp reference end
  with equal results on the extended reals.

  Both programs compute  p₀ · sampled + p₁ · G, where p₀, p₁ (a softmax of the two weight arguments) and
  `sampled` (attention over 1024 gathered rows, averaged and broadcast) are computed by the same host operations
  in both, and G is block-wise Gaussian attention over 128 blocks of 1024 rows: row i's mean, over the rows j of
  its block, of exp(−max(|x_i|² + |x_j|² − 2 x_i·x_j, 0) / w) · x_j, divided by 1024. The reference computes G on
  the host in one batched form; the kernel computes one block per grid point. The two differ in spelling only:
  the kernel multiplies by a constant named −1/w where the reference negates and divides by w (w the float
  nearest 102.4), multiplies by 2^-10 where the reference divides by 1024, and rounds to a narrower float format
  on the way into its matrix products, which is the identity on the extended reals. A quotient by a nonzero real is
  the product with its reciprocal at every extended real, so no finiteness of the inputs is used.

  The modules: Proof/GaussSpec (G as one function), Proof/Consts (the literals and the two scalar laws),
  Proof/RefGauss and Proof/RefResult (the reference is the combination at G), Proof/BlockValue (one grid point's
  stored value is G on its block), Proof/GaussArray (the output array is G), Proof/KernelHost and Proof/KernelRun
  (the kernel's program is the combination at G).
-/
import proofs.«120429_j64450279244499_1_alg».proof.Defs
import proofs.«120429_j64450279244499_1_alg».proof.Proof.Gen.Kernel
import proofs.«120429_j64450279244499_1_alg».proof.Proof.Gen.Kernel.Frame
import proofs.«120429_j64450279244499_1_alg».proof.Proof.Gen.KernelIdeal
import proofs.«120429_j64450279244499_1_alg».proof.Proof.Gen.KernelIdeal.Frame
import proofs.«120429_j64450279244499_1_alg».proof.Proof.Gen.ReferenceIdeal
import proofs.«120429_j64450279244499_1_alg».proof.Proof.Gen.ReferenceIdeal.Run
import proofs.«120429_j64450279244499_1_alg».proof.Proof.Gen.ReferenceIdeal.Read
import proofs.«120429_j64450279244499_1_alg».proof.Proof.Gen.Pre_finite_inputs
import proofs.«120429_j64450279244499_1_alg».proof.Proof.RefResult
import proofs.«120429_j64450279244499_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The one rewrite of the idealization: the constant under the exponential is named −1/w, and at the extended
    reals the printed constant is that value. -/
theorem preserves : Cert.preserves_Kernel_KernelIdeal :=
  IdealRules.named_const.statement Cert.KernelIdeal.κ "neg_inv_width" .f32 0xBC200000#32 ((-131072 / 13421773 : ℝ) : EReal) rfl

/-- Both programs end at the combination at the specification of the rows laid out as blocks. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, Cert.ReferenceIdeal.RefGauss.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
